-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x128x3 : Shape := ⟨4, ![2048, 128, 128, 3]⟩
abbrev S1024x49152 : Shape := ⟨2, ![1024, 49152]⟩
abbrev S1024 : Shape := ⟨1, ![1024]⟩
abbrev S_ : Shape := ⟨0, ![]⟩

class Facts : Prop where
  bcast_S_S2048x128x128x3 : S_.BroadcastsInDim S2048x128x128x3 (![] : Fin 0 → Fin S2048x128x128x3.rank)
  reducesTo_S2048x128x128x3_S_d0_1_2_3 : S2048x128x128x3.ReducesTo [0, 1, 2, 3] S_
  h_S_ : 0 < S_.numel
  bcast_S_S1024x49152 : S_.BroadcastsInDim S1024x49152 (![] : Fin 0 → Fin S1024x49152.rank)
  reducesTo_S1024x49152_S_d0_1 : S1024x49152.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2048x128x128x3 .f32) (main_arg1 : FVec F S1024x49152 .f32) (main_arg2 : FVec F S1024 .f32) : IVec S_ 1 :=
  let main_v0 : FVec F S2048x128x128x3 .f32 := Host.absf main_arg0
  let main_cst : FVec F S_ .f32 := constant S_ .f32 0x7F800000#32
  let main_v1 : FVec F S2048x128x128x3 .f32 := broadcastInDim S2048x128x128x3 ![] bcast_S_S2048x128x128x3 main_cst
  let main_v2 : IVec S2048x128x128x3 1 := cmpf .olt main_v0 main_v1
  let main_c : IVec S_ 1 := constantI S_ 1 1#1
  let main_v3 : IVec S_ 1 := (fun x v => Host.reduce IntOp.andi x v reducesTo_S2048x128x128x3_S_d0_1_2_3 h_S_) main_v2 main_c
  let main_v4 : FVec F S1024x49152 .f32 := Host.absf main_arg1
  let main_cst_0 : FVec F S_ .f32 := constant S_ .f32 0x7F800000#32
  let main_v5 : FVec F S1024x49152 .f32 := broadcastInDim S1024x49152 ![] bcast_S_S1024x49152 main_cst_0
  let main_v6 : IVec S1024x49152 1 := cmpf .olt main_v4 main_v5
  let main_c_1 : IVec S_ 1 := constantI S_ 1 1#1
  let main_v7 : IVec S_ 1 := (fun x v => Host.reduce IntOp.andi x v reducesTo_S1024x49152_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S2048x128x128x3 : Shape := ⟨4, ![2048, 128, 128, 3]⟩
abbrev S1024x49152 : Shape := ⟨2, ![1024, 49152]⟩
abbrev S1024 : Shape := ⟨1, ![1024]⟩
abbrev S2048x49152 : Shape := ⟨2, ![2048, 49152]⟩
abbrev S1x1024 : Shape := ⟨2, ![1, 1024]⟩
abbrev S2048x1024 : Shape := ⟨2, ![2048, 1024]⟩
abbrev S512x1024 : Shape := ⟨2, ![512, 1024]⟩
abbrev S1x512 : Shape := ⟨2, ![1, 512]⟩
abbrev S512x512 : Shape := ⟨2, ![512, 512]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S2048x128x128x3, .f32⟩
  | .hbm, ⟨1, _⟩ => ⟨S1024x49152, .f32⟩
  | .hbm, ⟨2, _⟩ => ⟨S1024, .f32⟩
  | .hbm, ⟨3, _⟩ => ⟨S2048x49152, .f32⟩
  | .hbm, ⟨4, _⟩ => ⟨S1x1024, .f32⟩
  | .hbm, ⟨5, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1, .f32⟩
  | .local _ .vmem, ⟨10, _⟩ => ⟨S512x1, .f32⟩
  | _, _ => ⟨S2048x128x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 48], ![false, false, false]⟩

def k0_cond2 (i : grid0.Coords) : BitVec 1 :=
  let arg2 : BitVec 32 := BitVec.ofNat 32 (i 2).val
  let c47_i32 : BitVec 32 := 47#32
  let v30 : BitVec 1 := Scalar.cmpi .eq arg2 c47_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2048x128x128x3_S2048x49152 : S2048x128x128x3.ShapeCasts S2048x49152
  shapeCasts_S1024_S1x1024 : S1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  reduces_S512x1024_S512 : S512x1024.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x49152.size a
  hwx0_0 : ∀ i : grid0.Coords, EltTy.bits .f32 = 32 ∨ (Rect.block (s := S2048x49152) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x49152.size a
  hwx0_1 : ∀ i : grid0.Coords, EltTy.bits .f32 = 32 ∨ (Rect.block (s := S1024x49152) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x1024.size a
  hwx0_3 : ∀ i : grid0.Coords, EltTy.bits .f32 = 32 ∨ (Rect.block (s := S2048x1024) S512x512.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x128x128x3 : Shape := ⟨4, ![2048, 128, 128, 3]⟩
abbrev S1024x49152 : Shape := ⟨2, ![1024, 49152]⟩
abbrev S1024 : Shape := ⟨1, ![1024]⟩
abbrev S2048x49152 : Shape := ⟨2, ![2048, 49152]⟩
abbrev S_ : Shape := ⟨0, ![]⟩
abbrev S2048 : Shape := ⟨1, ![2048]⟩
abbrev S2048x1 : Shape := ⟨2, ![2048, 1]⟩
abbrev S2048x1024 : Shape := ⟨2, ![2048, 1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x128x128x3, .f32⟩
  | .hbm, ⟨1, _⟩ => ⟨S1024x49152, .f32⟩
  | .hbm, ⟨2, _⟩ => ⟨S1024, .f32⟩
  | .hbm, ⟨3, _⟩ => ⟨S2048x49152, .f32⟩
  | .hbm, ⟨4, _⟩ => ⟨S2048x49152, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S1024x49152, .f32⟩
  | .hbm, ⟨9, _⟩ => ⟨S_, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | _, _ => ⟨S2048x128x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  shapeCasts_S2048x128x128x3_S2048x49152 : S2048x128x128x3.ShapeCasts S2048x49152
  reducesTo_S2048x49152_S2048_d1 : S2048x49152.ReducesTo [1] S2048
  h_S_ : 0 < S_.numel
  bcast_S2048_S2048x1_0 : S2048.BroadcastsInDim S2048x1 (![0] : Fin 1 → Fin S2048x1.rank)
  reducesTo_S1024x49152_S1024_d1 : S1024x49152.ReducesTo [1] S1024
  bcast_S1024_S1x1024_1 : S1024.BroadcastsInDim S1x1024 (![1] : Fin 1 → Fin S1x1024.rank)
  bcast_S2048x1_S2048x1024_0_1 : S2048x1.BroadcastsInDim S2048x1024 (![0, 1] : Fin 2 → Fin S2048x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  dot_S2048x49152_S1024x49152_S2048x1024_1_1_0_0_n_n_wf : DotDims.WF S2048x49152 S1024x49152 S2048x1024 [1] [1] [0] [0] [] []

variable [Facts₀]

def dot_S2048x49152_S1024x49152_S2048x1024_1_1_0_0_n_n : DotDims S2048x49152 S1024x49152 S2048x1024 where
  lhsContracting := [1]
  rhsContracting := [1]
  lhsNonContracting := [0]
  rhsNonContracting := [0]
  lhsBatch := []
  rhsBatch := []
  wf := dot_S2048x49152_S1024x49152_S2048x1024_1_1_0_0_n_n_wf

class Facts : Prop extends Facts₀ where

variable [Facts]
-- ==== Proof.Pieces.lean ====
/-
  What each kind of grid step leaves in the three running totals and in the output tile, as the step's arithmetic
  applied to the blocks it was given (for any number format).

  A first step along the reduction axis clears the totals and then accumulates into the cleared values; a middle step
  accumulates into what the step before left; a last step accumulates and then writes the finished tile from the three
  totals it has just updated.  Each buffer is stored whole, so what it holds afterwards is the last value stored.
-/
import proofs.«178254_j6562710028922_1_alg».proof.Proof.Gen.KernelIdeal.Frame
import Idealize.ShloMosaic.Lib.Pipeline.Value
import Idealize.ShloMosaic.Lib.Tactic

set_option maxRecDepth 16384

noncomputable section

namespace Cert.KernelIdeal.RbfPieces

open Cert.KernelIdeal Cert.KernelIdeal.Gen Idealize.ShloMosaic Idealize.ShloMosaic.TcCoe Idealize.ShloMosaic.Tactic
open Idealize.SL.Sem

variable {F : FTy → Type} [FloatOps F]

theorem hz : (![0, 0] : Fin 2 → Nat) = fun _ => 0 := funext fun a => by fin_cases a <;> rfl

/-! ## A first step: clear, then accumulate -/

/-- The product total after a first step: the step's partial products added to the cleared total. -/
theorem firstXc (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x1024 .f32) (x1 : Vec F S512x1024 .f32) (x2 : Vec F S1x512 .f32) :
    sout0_A_0 c i arg3 harg3 arg4 harg4 arg5 harg5 arg6 harg6 arg7 harg7 arg8 harg8 arg9 harg9 hc0 hc1 x0 x1 x2 = k0_pay6 x0 x1 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-- The input rows' square norms after a first step. -/
theorem firstXsq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x1024 .f32) (x1 : Vec F S512x1024 .f32) (x2 : Vec F S1x512 .f32) :
    sout0_A_1 c i arg3 harg3 arg4 harg4 arg5 harg5 arg6 harg6 arg7 harg7 arg8 harg8 arg9 harg9 hc0 hc1 x0 x1 x2 = k0_pay7 x0 (k0_pay3 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-- The centers' square norms after a first step. -/
theorem firstCsq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x1024 .f32) (x1 : Vec F S512x1024 .f32) (x2 : Vec F S1x512 .f32) :
    sout0_A_2 c i arg3 harg3 arg4 harg4 arg5 harg5 arg6 harg6 arg7 harg7 arg8 harg8 arg9 harg9 hc0 hc1 x0 x1 x2 = k0_pay8 x1 (k0_pay4 (F := F)) := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-! ## A middle step: accumulate -/

/-- The product total after a middle step. -/
theorem midXc (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x1024 .f32) (x1 : Vec F S512x1024 .f32) (x2 : Vec F S1x512 .f32) (xs0 : Vec F S512x512 .f32) (xs1 : Vec F S512x1 .f32) (xs2 : Vec F S512x1 .f32) :
    sout0_B_0 c i arg3 harg3 arg4 harg4 arg5 harg5 arg6 harg6 arg7 harg7 arg8 harg8 arg9 harg9 hc0 hc1 x0 x1 x2 xs0 xs1 xs2 = k0_pay6 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-- The input rows' square norms after a middle step. -/
theorem midXsq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x1024 .f32) (x1 : Vec F S512x1024 .f32) (x2 : Vec F S1x512 .f32) (xs0 : Vec F S512x512 .f32) (xs1 : Vec F S512x1 .f32) (xs2 : Vec F S512x1 .f32) :
    sout0_B_1 c i arg3 harg3 arg4 harg4 arg5 harg5 arg6 harg6 arg7 harg7 arg8 harg8 arg9 harg9 hc0 hc1 x0 x1 x2 xs0 xs1 xs2 = k0_pay7 x0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-- The centers' square norms after a middle step. -/
theorem midCsq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x1024 .f32) (x1 : Vec F S512x1024 .f32) (x2 : Vec F S1x512 .f32) (xs0 : Vec F S512x512 .f32) (xs1 : Vec F S512x1 .f32) (xs2 : Vec F S512x1 .f32) :
    sout0_B_2 c i arg3 harg3 arg4 harg4 arg5 harg5 arg6 harg6 arg7 harg7 arg8 harg8 arg9 harg9 hc0 hc1 x0 x1 x2 xs0 xs1 xs2 = k0_pay8 x1 xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-! ## A last step: accumulate, then finish the tile -/

/-- The product total after a last step. -/
theorem lastXc (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .f32) (x1 : Vec F S512x1024 .f32) (x2 : Vec F S1x512 .f32) (xs0 : Vec F S512x512 .f32) (xs1 : Vec F S512x1 .f32) (xs2 : Vec F S512x1 .f32) :
    sout0_C_0 c i arg3 harg3 arg4 harg4 arg5 harg5 arg6 harg6 arg7 harg7 arg8 harg8 arg9 harg9 hc0 hc1 x0 x1 x2 xs0 xs1 xs2 = k0_pay6 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-- The input rows' square norms after a last step. -/
theorem lastXsq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .f32) (x1 : Vec F S512x1024 .f32) (x2 : Vec F S1x512 .f32) (xs0 : Vec F S512x512 .f32) (xs1 : Vec F S512x1 .f32) (xs2 : Vec F S512x1 .f32) :
    sout0_C_1 c i arg3 harg3 arg4 harg4 arg5 harg5 arg6 harg6 arg7 harg7 arg8 harg8 arg9 harg9 hc0 hc1 x0 x1 x2 xs0 xs1 xs2 = k0_pay7 x0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-- The centers' square norms after a last step. -/
theorem lastCsq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .f32) (x1 : Vec F S512x1024 .f32) (x2 : Vec F S1x512 .f32) (xs0 : Vec F S512x512 .f32) (xs1 : Vec F S512x1 .f32) (xs2 : Vec F S512x1 .f32) :
    sout0_C_2 c i arg3 harg3 arg4 harg4 arg5 harg5 arg6 harg6 arg7 harg7 arg8 harg8 arg9 harg9 hc0 hc1 x0 x1 x2 xs0 xs1 xs2 = k0_pay8 x1 xs2 := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

/-- The finished tile: the closing arithmetic applied to the three totals the same step has just updated and to the
    block of scales. -/
theorem lastTile (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .f32) (x1 : Vec F S512x1024 .f32) (x2 : Vec F S1x512 .f32) (xs0 : Vec F S512x512 .f32) (xs1 : Vec F S512x1 .f32) (xs2 : Vec F S512x1 .f32) :
    out0_C_3 c i arg3 harg3 arg4 harg4 arg5 harg5 arg6 harg6 arg7 harg7 arg8 harg8 arg9 harg9 hc0 hc1 x0 x1 x2 xs0 xs1 xs2
      = k0_pay1 (k0_pay8 x1 xs2) (k0_pay7 x0 xs1) (k0_pay6 x0 x1 xs0) x2 := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  simp only [View.canon_cons_unit_zero (S := S512x512) hz, View.canon_cons_unit_zero (S := S512x1) hz,
    View.readCov_unit_zero (S := S512x512) _ hz, View.readCov_unit_zero (S := S512x1) _ hz,
    View.readAt_eq_ld, harg3.read_unread, harg4.read_unread, harg5.read_unread, harg7.read_unread, harg8.read_unread,
    harg9.read_unread, View.ld_unit_zero (S := S512x1024) hz, View.ld_unit_zero (S := S512x512) hz,
    View.ld_unit_zero (S := S512x1) hz, View.ld_unit_zero (S := S1x512) hz]

end Cert.KernelIdeal.RbfPieces

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.Step.lean ====
/-
  One grid step of the radial-basis kernel, read one entry at a time over the extended reals.

  A step holds a 512 x 1024 block `x` of the flattened input rows and a 512 x 1024 block `c` of the centers
  (the same 1024 columns of both), and three running totals: `xc` (512 x 512), `xsq` and `csq` (512 x 1 columns).
    * clearing stores zero in each total;
    * accumulating adds to `xc (p, q)` the partial inner product  ∑ₑ x (p, e) · c (q, e),  to `xsq (p)` the partial
      square norm  ∑ₑ x (p, e)²  and to `csq (q)` the partial square norm  ∑ₑ c (q, e)²  (the narrowing of the matrix
      product's operands is the identity on extended reals, and the product starts from a zero accumulator);
    * finishing writes  exp ((0 − β (q)) · ((xsq (p) + csq (q)) − 2 · xc (p, q)))  where the column `csq` is
      transposed into a row and both are spread over the 512 x 512 tile.
-/
import proofs.«178254_j6562710028922_1_alg».proof.Proof.Gen.KernelIdeal.Skeleton
import proofs.«178254_j6562710028922_1_alg».proof.Proof.LibKeptColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RbfStep

open Cert.KernelIdeal Cert.KernelIdeal.Gen Idealize.ShloMosaic Idealize.ShloMosaic.ValueIdx
open Idealize.ShloMosaic.KeptColumn

/-! ## Clearing -/

/-- The cleared product total is zero at every entry. -/
theorem clearedXc_apply (i : S512x512.Idx) : k0_pay2 (F := Ideal) i = 0 := by
  unfold k0_pay2
  simp only [shapeCast_self]
  exact Ideal.ofBits_zero_f32

/-- The cleared square norms of the input rows are zero. -/
theorem clearedXsq_apply (i : S512x1.Idx) : k0_pay3 (F := Ideal) i = 0 := by
  unfold k0_pay3
  simp only [shapeCast_self]
  exact Ideal.ofBits_zero_f32

/-- The cleared square norms of the centers are zero. -/
theorem clearedCsq_apply (i : S512x1.Idx) : k0_pay4 (F := Ideal) i = 0 := by
  unfold k0_pay4
  simp only [shapeCast_self]
  exact Ideal.ofBits_zero_f32

/-! ## Accumulating -/

/-- The lane sum of the squares of row `p` of a block, kept as a column entry: the sum over the block's 1024 columns. -/
theorem rowSq_apply (v : FVec Ideal S512x1024 .f32) (p : Fin 512) :
    shapeCast S512x1 (multiReduction (F := Ideal) .add [1] S512 (mulf v v) 0x00000000#32 reduces_S512x1024_S512 (.inl rfl) rfl)
        shapeCasts_S512_S512x1 (ix2 p (0 : Fin 1))
      = ∑ e : Fin 1024, v (ix2 p e) * v (ix2 p e) := by
  refine (shapeCast_a_a1_apply _ shapeCasts_S512_S512x1 p 0).trans ?_
  refine (Ideal.multiReduction_add_single (mulf v v) 0x00000000#32 reduces_S512x1024_S512 (.inl rfl) rfl (ix1 p)).trans ?_
  refine Finset.sum_congr rfl fun e _ => ?_
  have hl : reduces_S512x1024_S512.lift (ix1 p) e = ix2 p e :=
    funext fun a => Fin.ext (by match a with | ⟨0, _⟩ => rfl | ⟨1, _⟩ => rfl)
  rw [hl]
  rfl

/-- The step adds to the square norm of input row `p` the squares of the row's 1024 entries in this block. -/
theorem xsqStep_apply (v3 : FVec Ideal S512x1024 .f32) (v14 : FVec Ideal S512x1 .f32) (p : Fin 512) :
    k0_pay7 (F := Ideal) v3 v14 (ix2 p (0 : Fin 1))
      = v14 (ix2 p (0 : Fin 1)) + ∑ e : Fin 1024, v3 (ix2 p e) * v3 (ix2 p e) := by
  unfold k0_pay7 k0_pay5
  simp only [shapeCast_self]
  exact congrArg (v14 (ix2 p (0 : Fin 1)) + ·) (rowSq_apply v3 p)

/-- The step adds to the square norm of center `q` the squares of the center's 1024 entries in this block. -/
theorem csqStep_apply (v5 : FVec Ideal S512x1024 .f32) (v22 : FVec Ideal S512x1 .f32) (q : Fin 512) :
    k0_pay8 (F := Ideal) v5 v22 (ix2 q (0 : Fin 1))
      = v22 (ix2 q (0 : Fin 1)) + ∑ e : Fin 1024, v5 (ix2 q e) * v5 (ix2 q e) := by
  unfold k0_pay8
  simp only [shapeCast_self]
  exact congrArg (v22 (ix2 q (0 : Fin 1)) + ·) (rowSq_apply v5 q)

/-- The left factor of the matrix product at output entry `(p, q)` and contraction position `e` is `x (p, e)`. -/
theorem dot_lhs (p q : Fin 512) (k : dot_S512x1024_S512x1024_S512x512_1_1_0_0_n_n.contr.Idx) (e : Fin 1024)
    (hk : (k ⟨0, by decide⟩).val = e.val) :
    dot_S512x1024_S512x1024_S512x512_1_1_0_0_n_n.lhsIdx (ix2 p q) k = ix2 p e :=
  funext fun a => Fin.ext (by
    match a with
    | ⟨0, _⟩ =>
      show (dot_S512x1024_S512x1024_S512x512_1_1_0_0_n_n.lhsIdx (ix2 p q) k 0).val = p.val
      unfold DotDims.lhsIdx
      rw [dif_neg (show ¬(0 : Fin S512x1024.rank) ∈ dot_S512x1024_S512x1024_S512x512_1_1_0_0_n_n.lhsBatch by decide),
        dif_pos (show (0 : Fin S512x1024.rank) ∈ dot_S512x1024_S512x1024_S512x512_1_1_0_0_n_n.lhsNonContracting by decide)]
      rfl
    | ⟨1, _⟩ =>
      exact (dot_S512x1024_S512x1024_S512x512_1_1_0_0_n_n.lhsIdx_val_of_single rfl (ix2 p q) k).trans hk)

/-- The right factor at output entry `(p, q)` and contraction position `e` is `c (q, e)`: both operands are
    contracted along their second axis. -/
theorem dot_rhs (p q : Fin 512) (k : dot_S512x1024_S512x1024_S512x512_1_1_0_0_n_n.contr.Idx) (e : Fin 1024)
    (hk : (k ⟨0, by decide⟩).val = e.val) :
    dot_S512x1024_S512x1024_S512x512_1_1_0_0_n_n.rhsIdx (ix2 p q) k = ix2 q e :=
  funext fun a => Fin.ext (by
    match a with
    | ⟨0, _⟩ =>
      show (dot_S512x1024_S512x1024_S512x512_1_1_0_0_n_n.rhsIdx (ix2 p q) k 0).val = q.val
      unfold DotDims.rhsIdx
      rw [dif_neg (show ¬(0 : Fin S512x1024.rank) ∈ dot_S512x1024_S512x1024_S512x512_1_1_0_0_n_n.rhsBatch by decide),
        dif_pos (show (0 : Fin S512x1024.rank) ∈ dot_S512x1024_S512x1024_S512x512_1_1_0_0_n_n.rhsNonContracting by decide)]
      rfl
    | ⟨1, _⟩ =>
      exact (dot_S512x1024_S512x1024_S512x512_1_1_0_0_n_n.rhsIdx_val_of_single rfl (ix2 p q) k).trans hk)

/-- The step adds to the product total at `(p, q)` the partial inner product of input row `p` and center `q` over the
    block's 1024 columns. -/
theorem dotStep_apply (v3 v5 : FVec Ideal S512x1024 .f32) (v9 : FVec Ideal S512x512 .f32) (p q : Fin 512) :
    k0_pay6 (F := Ideal) v3 v5 v9 (ix2 p q)
      = v9 (ix2 p q) + ∑ e : Fin 1024, v3 (ix2 p e) * v5 (ix2 q e) := by
  unfold k0_pay6 k0_pay5
  simp only [shapeCast_self]
  refine congrArg (v9 (ix2 p q) + ·) ?_
  refine (Ideal.matmul_constant_zero_apply dot_S512x1024_S512x1024_S512x512_1_1_0_0_n_n none _ _ (ix2 p q)).trans ?_
  rw [← Equiv.sum_comp (contrEquiv1 dot_S512x1024_S512x1024_S512x512_1_1_0_0_n_n 1024 rfl rfl).symm]
  refine Finset.sum_congr rfl fun e _ => ?_
  have hk := contrEquiv1_symm_val dot_S512x1024_S512x1024_S512x512_1_1_0_0_n_n 1024 rfl rfl e
  rw [dot_lhs p q _ e hk, dot_rhs p q _ e hk]
  rfl

/-! ## Finishing -/

/-- The finished tile at `(p, q)`: the exponential of minus the scale of center `q` times the squared distance
    written as  ‖x‖² + ‖c‖² − 2 x·c. -/
theorem rbfOut_apply (v33 v35 : FVec Ideal S512x1 .f32) (v39 : FVec Ideal S512x512 .f32) (v43 : FVec Ideal S1x512 .f32)
    (p q : Fin 512) :
    k0_pay1 (F := Ideal) v33 v35 v39 v43 (ix2 p q)
      = Ideal.exp ((0 - v43 (ix2 (0 : Fin 1) q))
          * ((v35 (ix2 p (0 : Fin 1)) + v33 (ix2 q (0 : Fin 1))) - Ideal.ofBits .f32 0x40000000#32 * v39 (ix2 p q))) := by
  unfold k0_pay1
  simp only [shapeCast_self]
  have e1 : broadcastTo S512x512 (subf (broadcast S1x512 (Scalar.ofBits (F := Ideal) .f32 0x00000000#32)) v43)
      broadcasts_S1x512_S512x512 (ix2 p q) = 0 - v43 (ix2 (0 : Fin 1) q) := by
    refine (broadcastTo_1b_ab_apply _ broadcasts_S1x512_S512x512 p q).trans ?_
    show Ideal.ofBits .f32 0x00000000#32 - v43 (ix2 (0 : Fin 1) q) = _
    rw [Ideal.ofBits_zero_f32]
  have e2 : broadcastTo S512x512 v35 broadcasts_S512x1_S512x512 (ix2 p q) = v35 (ix2 p (0 : Fin 1)) :=
    broadcastTo_a1_ab_apply v35 broadcasts_S512x1_S512x512 p q
  have e3 : broadcastTo S512x512 (transpose S1x512 [1, 0] v33 transposes_S512x1_p1_0_S1x512) broadcasts_S1x512_S512x512 (ix2 p q)
      = v33 (ix2 q (0 : Fin 1)) :=
    (broadcastTo_1b_ab_apply _ broadcasts_S1x512_S512x512 p q).trans
      (transpose_ix2_apply v33 transposes_S512x1_p1_0_S1x512 (0 : Fin 1) q)
  exact congrArg Ideal.exp (congrArg₂ (· * ·) e1 (congrArg₂ (· - ·) (congrArg₂ (· + ·) e2 e3) rfl))

end Cert.KernelIdeal.RbfStep

end
-- ==== Proof.BlockSum.lean ====
/-
  Splitting a sum over a long axis into blocks.

  A sum over `Fin (B * L)` of values in a commutative additive monoid is the sum, over the `B` blocks, of the
  sums over the `L` positions inside a block; position `e` of block `k` is the index `k * L + e`.  Only
  commutativity and associativity of the addition are used, so the law holds on the extended reals with
  no finiteness assumption.
-/
import Idealize.ShloMosaic.Lib.ValueIdx

namespace Cert.RbfSpec

open Finset

/-- The index `k * L + e` of position `e` in block `k`, as an element of `Fin (B * L)`. -/
def blockIdx {B L : Nat} (k : Fin B) (e : Fin L) : Fin (B * L) :=
  ⟨k.val * L + e.val, by
    have h1 : k.val * L + e.val < (k.val + 1) * L := by
      rw [Nat.succ_mul]; exact Nat.add_lt_add_left e.isLt _
    exact lt_of_lt_of_le h1 (Nat.mul_le_mul_right L k.isLt)⟩

@[simp] theorem blockIdx_val {B L : Nat} (k : Fin B) (e : Fin L) : (blockIdx k e).val = k.val * L + e.val := rfl

/-- A sum over `Fin (B * L)` is the sum over blocks of the sums inside each block. -/
theorem sum_blocks {M : Type*} [AddCommMonoid M] {B L : Nat} (f : Fin (B * L) → M) :
    ∑ d : Fin (B * L), f d = ∑ k : Fin B, ∑ e : Fin L, f (blockIdx k e) :=
  calc ∑ d : Fin (B * L), f d
      = ∑ x : Fin B × Fin L, f (finProdFinEquiv x) := (Equiv.sum_comp finProdFinEquiv f).symm
    _ = ∑ x : Fin B × Fin L, f (blockIdx x.1 x.2) :=
        Finset.sum_congr rfl fun x _ => congrArg f (Fin.ext (by
          show x.2.val + L * x.1.val = x.1.val * L + x.2.val
          rw [Nat.mul_comm, Nat.add_comm]))
    _ = ∑ k : Fin B, ∑ e : Fin L, f (blockIdx k e) := Fintype.sum_prod_type' fun k e => f (blockIdx k e)

end Cert.RbfSpec
-- ==== Proof.Spec.lean ====
/-
  The radial-basis map, as one function of a flattened input matrix, the centers and the scales.

  For input row `r` and center `q`, over the 49152 features `d`:
      out (r, q) = exp ( −β (q) · ( (‖x r‖² + ‖c q‖²) − 2 · ⟨x r, c q⟩ ) ),
  with  ‖x r‖² = ∑ x (r, d)²,  ‖c q‖² = ∑ c (q, d)²,  ⟨x r, c q⟩ = ∑ x (r, d) · c (q, d),  all over the extended reals
  (the constant 2 is kept as the binary word both programs spell).

  The features are also addressed as 48 blocks of 1024, the input rows as 4 blocks of 512 and the centers as 2 blocks
  of 512: a sum over all features is the sum over the blocks of the sums inside each block.
-/
import proofs.«178254_j6562710028922_1_alg».proof.Proof.BlockSum
import Idealize.ShloMosaic.PureOps.Ideal
import Idealize.ShloMosaic.Lib.ValueIdx

noncomputable section

namespace Cert.RbfSpec

open Idealize.ShloMosaic Idealize.ShloMosaic.ValueIdx

/-- Row `p` of row block `b` of the inputs: row `512 b + p` of 2048. -/
def inputRow (b : Fin 4) (p : Fin 512) : Fin 2048 :=
  ⟨b.val * 512 + p.val, by have := b.isLt; have := p.isLt; omega⟩

/-- Center `q` of center block `b`: center `512 b + q` of 1024. -/
def centerRow (b : Fin 2) (q : Fin 512) : Fin 1024 :=
  ⟨b.val * 512 + q.val, by have := b.isLt; have := q.isLt; omega⟩

/-- Feature `e` of feature block `k`: feature `1024 k + e` of 49152. -/
def featCol (k : Fin 48) (e : Fin 1024) : Fin 49152 :=
  ⟨k.val * 1024 + e.val, by have := k.isLt; have := e.isLt; omega⟩

@[simp] theorem inputRow_val (b : Fin 4) (p : Fin 512) : (inputRow b p).val = b.val * 512 + p.val := rfl
@[simp] theorem centerRow_val (b : Fin 2) (q : Fin 512) : (centerRow b q).val = b.val * 512 + q.val := rfl
@[simp] theorem featCol_val (k : Fin 48) (e : Fin 1024) : (featCol k e).val = k.val * 1024 + e.val := rfl

/-- A sum over the 49152 features is the sum over the 48 feature blocks of the sums over each block's 1024 features. -/
theorem sum_features {M : Type*} [AddCommMonoid M] (f : Fin 49152 → M) :
    ∑ d : Fin 49152, f d = ∑ k : Fin 48, ∑ e : Fin 1024, f (featCol k e) :=
  (sum_blocks (B := 48) (L := 1024) f).trans
    (Finset.sum_congr rfl fun k _ => Finset.sum_congr rfl fun e _ => congrArg f (Fin.ext rfl))

/-- The same with the blocks counted by `Finset.range 48`: `g s` is block `s`'s partial sum whenever `s < 48`. -/
theorem sum_features_range {M : Type*} [AddCommMonoid M] (f : Fin 49152 → M) (g : ℕ → M)
    (hg : ∀ k : Fin 48, g k.val = ∑ e : Fin 1024, f (featCol k e)) :
    ∑ s ∈ Finset.range 48, g s = ∑ d : Fin 49152, f d := by
  rw [sum_features, Finset.sum_range]
  exact Finset.sum_congr rfl fun k _ => hg k

/-- The square norm of input row `r`. -/
def sqNormX (X : (⟨2, ![2048, 49152]⟩ : Shape).Idx → EReal) (r : Fin 2048) : EReal :=
  ∑ d : Fin 49152, X (ix2 r d) * X (ix2 r d)

/-- The square norm of center `q`. -/
def sqNormC (C : (⟨2, ![1024, 49152]⟩ : Shape).Idx → EReal) (q : Fin 1024) : EReal :=
  ∑ d : Fin 49152, C (ix2 q d) * C (ix2 q d)

/-- The inner product of input row `r` and center `q`. -/
def inner (X : (⟨2, ![2048, 49152]⟩ : Shape).Idx → EReal) (C : (⟨2, ![1024, 49152]⟩ : Shape).Idx → EReal)
    (r : Fin 2048) (q : Fin 1024) : EReal :=
  ∑ d : Fin 49152, X (ix2 r d) * C (ix2 q d)

/-- The radial-basis activation of input row `r` at center `q`. -/
def rbf (X : (⟨2, ![2048, 49152]⟩ : Shape).Idx → EReal) (C : (⟨2, ![1024, 49152]⟩ : Shape).Idx → EReal)
    (β : Fin 1024 → EReal) (r : Fin 2048) (q : Fin 1024) : EReal :=
  Ideal.exp (-(β q) * ((sqNormX X r + sqNormC C q) - Ideal.ofBits .f32 0x40000000#32 * inner X C r q))

end Cert.RbfSpec

end
-- ==== Proof.Grid.lean ====
/-
  The grid of the radial-basis kernel and the blocks its windows hold.

  The grid has 4 x 2 x 48 = 384 points, the last axis fastest: point `t` is input-row block `t / 96`, center block
  `(t / 48) mod 2` and feature block `t mod 48`.  At point `t` the first window holds rows `512 (t / 96) + p` and
  features `1024 (t mod 48) + e` of the flattened inputs, the second holds centers `512 ((t / 48) mod 2) + q` over
  the same features, the third the scales of those centers, and the output tile is rows `512 (t / 96) + p`,
  columns `512 ((t / 48) mod 2) + q` of the result.
-/
import proofs.«178254_j6562710028922_1_alg».proof.Proof.Gen.KernelIdeal.Frame
import proofs.«178254_j6562710028922_1_alg».proof.Proof.Spec
import Idealize.ShloMosaic.Lib.Pipeline.Value
import Idealize.ShloMosaic.Lib.ValueIdx

noncomputable section

namespace Cert.KernelIdeal.RbfGrid

open Cert.KernelIdeal Cert.KernelIdeal.Gen Idealize.ShloMosaic Idealize.ShloMosaic.TcCoe Idealize.ShloMosaic.ValueIdx
open Idealize.SL.Sem Cert.RbfSpec

variable {F : FTy → Type} [FloatOps F]
variable (m : (ℓ : Loc nD τ sig) → Buf (Elt F) ℓ)

/-- A point's position is below 384. -/
theorem lt384 (t : Fin cfg0.N) : t.val < 384 := lt_of_lt_of_eq t.isLt (show cfg0.N = 384 from N_0)

/-- The windows' block indices at a point, from the point's position (decided over the 384 points). -/
theorem index_facts : ∀ t : Fin cfg0.N,
    win0_0.index t (0 : Fin 2) = t.val / 96 ∧ win0_0.index t (1 : Fin 2) = t.val % 48
    ∧ win0_1.index t (0 : Fin 2) = t.val / 48 % 2 ∧ win0_1.index t (1 : Fin 2) = t.val % 48
    ∧ win0_2.index t (0 : Fin 2) = 0 ∧ win0_2.index t (1 : Fin 2) = t.val / 48 % 2
    ∧ win0_3.index t (0 : Fin 2) = t.val / 96 ∧ win0_3.index t (1 : Fin 2) = t.val / 48 % 2 :=
  (by decide +kernel : ∀ t : Fin grid0.N, _)

/-- The input-row block of position `n` (for `n < 384` it is `n / 96`). -/
def rowBlk (n : ℕ) : Fin 4 := ⟨n / 96 % 4, Nat.mod_lt _ (by decide)⟩
/-- The center block of position `n`. -/
def ctrBlk (n : ℕ) : Fin 2 := ⟨n / 48 % 2, Nat.mod_lt _ (by decide)⟩
/-- The feature block of position `n`. -/
def featBlk (n : ℕ) : Fin 48 := ⟨n % 48, Nat.mod_lt _ (by decide)⟩

@[simp] theorem rowBlk_val (n : ℕ) : (rowBlk n).val = n / 96 % 4 := rfl
@[simp] theorem ctrBlk_val (n : ℕ) : (ctrBlk n).val = n / 48 % 2 := rfl
@[simp] theorem featBlk_val (n : ℕ) : (featBlk n).val = n % 48 := rfl

/-- The first window's block at a point, entry `(p, e)`: input row `p` of the point's row block at feature `e` of its
    feature block. -/
theorem xblk_apply (c : Dev nD) (t : Fin cfg0.N) (p : Fin 512) (e : Fin 1024) :
    (iblk m c 0 t : Vec F S512x1024 .f32) (ix2 p e)
      = V m c main_v0 (ix2 (inputRow (rowBlk t.val) p) (featCol (featBlk t.val) e)) := by
  obtain ⟨e0, e1, -⟩ := index_facts t
  have hN := lt384 t
  unfold iblk
  rw [View.read_apply]
  show V m c main_v0 (((cfg0.win 0).blk t).view.emb (ix2 p e)) = _
  refine congrArg (V m c main_v0) (funext fun a => Fin.ext ?_)
  match a with
  | ⟨0, _⟩ => show win0_0.index t (0 : Fin 2) * 512 + 1 * p.val = t.val / 96 % 4 * 512 + p.val; rw [e0]; omega
  | ⟨1, _⟩ => show win0_0.index t (1 : Fin 2) * 1024 + 1 * e.val = t.val % 48 * 1024 + e.val; rw [e1]; omega

/-- The second window's block at a point, entry `(q, e)`: center `q` of the point's center block at feature `e` of its
    feature block. -/
theorem cblk_apply (c : Dev nD) (t : Fin cfg0.N) (q : Fin 512) (e : Fin 1024) :
    (iblk m c 1 t : Vec F S512x1024 .f32) (ix2 q e)
      = V m c main_arg1 (ix2 (centerRow (ctrBlk t.val) q) (featCol (featBlk t.val) e)) := by
  obtain ⟨-, -, e2, e3, -⟩ := index_facts t
  unfold iblk
  rw [View.read_apply]
  show V m c main_arg1 (((cfg0.win 1).blk t).view.emb (ix2 q e)) = _
  refine congrArg (V m c main_arg1) (funext fun a => Fin.ext ?_)
  match a with
  | ⟨0, _⟩ => show win0_1.index t (0 : Fin 2) * 512 + 1 * q.val = t.val / 48 % 2 * 512 + q.val; rw [e2]; omega
  | ⟨1, _⟩ => show win0_1.index t (1 : Fin 2) * 1024 + 1 * e.val = t.val % 48 * 1024 + e.val; rw [e3]; omega

/-- The third window's block at a point, entry `(0, q)`: the scale of center `q` of the point's center block. -/
theorem bblk_apply (c : Dev nD) (t : Fin cfg0.N) (q : Fin 512) :
    (iblk m c 2 t : Vec F S1x512 .f32) (ix2 (0 : Fin 1) q)
      = V m c main_v1 (ix2 (0 : Fin 1) (centerRow (ctrBlk t.val) q)) := by
  obtain ⟨-, -, -, -, e4, e5, -⟩ := index_facts t
  unfold iblk
  rw [View.read_apply]
  show V m c main_v1 (((cfg0.win 2).blk t).view.emb (ix2 (0 : Fin 1) q)) = _
  refine congrArg (V m c main_v1) (funext fun a => Fin.ext ?_)
  match a with
  | ⟨0, _⟩ => show win0_2.index t (0 : Fin 2) * 1 + 1 * 0 = 0; rw [e4]
  | ⟨1, _⟩ => show win0_2.index t (1 : Fin 2) * 512 + 1 * q.val = t.val / 48 % 2 * 512 + q.val; rw [e5]; omega

end Cert.KernelIdeal.RbfGrid

end
-- ==== Proof.Accum.lean ====
/-
  One grid point's effect on the three running totals.

  Along the 48 feature blocks of one output tile the totals are cleared at the first block and each block adds its
  partial sum: this module states what a single point does to each total, as a function of what the point before
  left, with the blocks read off the arrays as the kernel finds them.
-/
import proofs.«178254_j6562710028922_1_alg».proof.Proof.Gen.KernelIdeal.Value
import proofs.«178254_j6562710028922_1_alg».proof.Proof.Pieces
import proofs.«178254_j6562710028922_1_alg».proof.Proof.Step
import proofs.«178254_j6562710028922_1_alg».proof.Proof.Grid

noncomputable section

namespace Cert.KernelIdeal.RbfAccum

open Cert.KernelIdeal Cert.KernelIdeal.Gen Cert.KernelIdeal.Value Idealize.ShloMosaic Idealize.ShloMosaic.TcCoe
open Idealize.ShloMosaic.ValueIdx Idealize.SL.Sem Cert.RbfSpec Cert.KernelIdeal.RbfGrid Cert.KernelIdeal.RbfStep
open Cert.KernelIdeal.RbfPieces

variable (m : (ℓ : Loc nD τ sig) → Buf (Elt Ideal) ℓ)

/-! ## One block's partial sums, from the arrays as the kernel finds them -/

/-- The flattened inputs as the kernel's first window finds them: 2048 rows of 49152 features. -/
abbrev arrX (c : Dev nD) : S2048x49152.Idx → EReal := V m c main_v0
/-- The centers as the second window finds them: 1024 rows of 49152 features. -/
abbrev arrC (c : Dev nD) : S1024x49152.Idx → EReal := V m c main_arg1
/-- The scales as the third window finds them: one row of 1024. -/
abbrev arrB (c : Dev nD) : S1x1024.Idx → EReal := V m c main_v1

/-- The partial inner product of input row `p` and center `q` of position `n`'s blocks, over its feature block. -/
def dotPart (c : Dev nD) (n : ℕ) (p q : Fin 512) : EReal :=
  ∑ e : Fin 1024, arrX m c (ix2 (inputRow (rowBlk n) p) (featCol (featBlk n) e))
    * arrC m c (ix2 (centerRow (ctrBlk n) q) (featCol (featBlk n) e))

/-- The partial square norm of input row `p` of position `n`'s row block, over its feature block. -/
def xsqPart (c : Dev nD) (n : ℕ) (p : Fin 512) : EReal :=
  ∑ e : Fin 1024, arrX m c (ix2 (inputRow (rowBlk n) p) (featCol (featBlk n) e))
    * arrX m c (ix2 (inputRow (rowBlk n) p) (featCol (featBlk n) e))

/-- The partial square norm of center `q` of position `n`'s center block, over its feature block. -/
def csqPart (c : Dev nD) (n : ℕ) (q : Fin 512) : EReal :=
  ∑ e : Fin 1024, arrC m c (ix2 (centerRow (ctrBlk n) q) (featCol (featBlk n) e))
    * arrC m c (ix2 (centerRow (ctrBlk n) q) (featCol (featBlk n) e))

/-! ## What one point does to each total -/

/-- At the first feature block the product total becomes zero plus the block's partial inner products. -/
theorem xc_first (c : Dev nD) (n : ℕ) (hb : n < cfg0.N) (h0 : n % 48 = 0) (acc : Vec Ideal S512x512 .f32) (p q : Fin 512) :
    scAt0_0 m c n hb acc (ix2 p q) = 0 + dotPart m c n p q := by
  have h1 : ¬n % 48 = 47 := by omega
  unfold scAt0_0
  rw [dif_pos h0, dif_neg h1]
  refine (congrFun (firstXc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N))) (ix2 p q)).trans ?_
  refine (dotStep_apply (iblk m c 0 (⟨n, hb⟩ : Fin cfg0.N)) (iblk m c 1 (⟨n, hb⟩ : Fin cfg0.N)) k0_pay2 p q).trans ?_
  exact congrArg₂ (fun a b : EReal => a + b) (clearedXc_apply _)
    (Finset.sum_congr rfl fun e _ => congrArg₂ (fun a b : EReal => a * b) (xblk_apply m c (⟨n, hb⟩ : Fin cfg0.N) p e) (cblk_apply m c (⟨n, hb⟩ : Fin cfg0.N) q e))

/-- At a later feature block the block's partial inner products are added to the product total. -/
theorem xc_next (c : Dev nD) (n : ℕ) (hb : n < cfg0.N) (h0 : ¬n % 48 = 0) (acc : Vec Ideal S512x512 .f32) (p q : Fin 512) :
    scAt0_0 m c n hb acc (ix2 p q) = acc (ix2 p q) + dotPart m c n p q := by
  unfold scAt0_0
  rw [dif_neg h0]
  by_cases h1 : n % 48 = 47
  · rw [dif_pos h1]
    refine (congrFun (lastXc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2) (ix2 p q)).trans ?_
    refine (dotStep_apply (iblk m c 0 (⟨n, hb⟩ : Fin cfg0.N)) (iblk m c 1 (⟨n, hb⟩ : Fin cfg0.N)) acc p q).trans ?_
    exact congrArg (fun b : EReal => acc (ix2 p q) + b)
      (Finset.sum_congr rfl fun e _ => congrArg₂ (fun a b : EReal => a * b) (xblk_apply m c (⟨n, hb⟩ : Fin cfg0.N) p e) (cblk_apply m c (⟨n, hb⟩ : Fin cfg0.N) q e))
  · rw [dif_neg h1]
    refine (congrFun (midXc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2) (ix2 p q)).trans ?_
    refine (dotStep_apply (iblk m c 0 (⟨n, hb⟩ : Fin cfg0.N)) (iblk m c 1 (⟨n, hb⟩ : Fin cfg0.N)) acc p q).trans ?_
    exact congrArg (fun b : EReal => acc (ix2 p q) + b)
      (Finset.sum_congr rfl fun e _ => congrArg₂ (fun a b : EReal => a * b) (xblk_apply m c (⟨n, hb⟩ : Fin cfg0.N) p e) (cblk_apply m c (⟨n, hb⟩ : Fin cfg0.N) q e))

/-- At the first feature block the input rows' square norms become zero plus the block's partial square norms. -/
theorem xsq_first (c : Dev nD) (n : ℕ) (hb : n < cfg0.N) (h0 : n % 48 = 0) (acc : Vec Ideal S512x1 .f32) (p : Fin 512) :
    scAt0_1 m c n hb acc (ix2 p (0 : Fin 1)) = 0 + xsqPart m c n p := by
  have h1 : ¬n % 48 = 47 := by omega
  unfold scAt0_1
  rw [dif_pos h0, dif_neg h1]
  refine (congrFun (firstXsq c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N))) (ix2 p (0 : Fin 1))).trans ?_
  refine (xsqStep_apply (iblk m c 0 (⟨n, hb⟩ : Fin cfg0.N)) k0_pay3 p).trans ?_
  exact congrArg₂ (fun a b : EReal => a + b) (clearedXsq_apply _)
    (Finset.sum_congr rfl fun e _ => congrArg₂ (fun a b : EReal => a * b) (xblk_apply m c (⟨n, hb⟩ : Fin cfg0.N) p e) (xblk_apply m c (⟨n, hb⟩ : Fin cfg0.N) p e))

/-- At a later feature block the block's partial square norms are added to the input rows' square norms. -/
theorem xsq_next (c : Dev nD) (n : ℕ) (hb : n < cfg0.N) (h0 : ¬n % 48 = 0) (acc : Vec Ideal S512x1 .f32) (p : Fin 512) :
    scAt0_1 m c n hb acc (ix2 p (0 : Fin 1)) = acc (ix2 p (0 : Fin 1)) + xsqPart m c n p := by
  unfold scAt0_1
  rw [dif_neg h0]
  by_cases h1 : n % 48 = 47
  · rw [dif_pos h1]
    refine (congrFun (lastXsq c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2) (ix2 p (0 : Fin 1))).trans ?_
    refine (xsqStep_apply (iblk m c 0 (⟨n, hb⟩ : Fin cfg0.N)) acc p).trans ?_
    exact congrArg (fun b : EReal => acc (ix2 p (0 : Fin 1)) + b)
      (Finset.sum_congr rfl fun e _ => congrArg₂ (fun a b : EReal => a * b) (xblk_apply m c (⟨n, hb⟩ : Fin cfg0.N) p e) (xblk_apply m c (⟨n, hb⟩ : Fin cfg0.N) p e))
  · rw [dif_neg h1]
    refine (congrFun (midXsq c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2) (ix2 p (0 : Fin 1))).trans ?_
    refine (xsqStep_apply (iblk m c 0 (⟨n, hb⟩ : Fin cfg0.N)) acc p).trans ?_
    exact congrArg (fun b : EReal => acc (ix2 p (0 : Fin 1)) + b)
      (Finset.sum_congr rfl fun e _ => congrArg₂ (fun a b : EReal => a * b) (xblk_apply m c (⟨n, hb⟩ : Fin cfg0.N) p e) (xblk_apply m c (⟨n, hb⟩ : Fin cfg0.N) p e))

/-- At the first feature block the centers' square norms become zero plus the block's partial square norms. -/
theorem csq_first (c : Dev nD) (n : ℕ) (hb : n < cfg0.N) (h0 : n % 48 = 0) (acc : Vec Ideal S512x1 .f32) (q : Fin 512) :
    scAt0_2 m c n hb acc (ix2 q (0 : Fin 1)) = 0 + csqPart m c n q := by
  have h1 : ¬n % 48 = 47 := by omega
  unfold scAt0_2
  rw [dif_pos h0, dif_neg h1]
  refine (congrFun (firstCsq c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N))) (ix2 q (0 : Fin 1))).trans ?_
  refine (csqStep_apply (iblk m c 1 (⟨n, hb⟩ : Fin cfg0.N)) k0_pay4 q).trans ?_
  exact congrArg₂ (fun a b : EReal => a + b) (clearedCsq_apply _)
    (Finset.sum_congr rfl fun e _ => congrArg₂ (fun a b : EReal => a * b) (cblk_apply m c (⟨n, hb⟩ : Fin cfg0.N) q e) (cblk_apply m c (⟨n, hb⟩ : Fin cfg0.N) q e))

/-- At a later feature block the block's partial square norms are added to the centers' square norms. -/
theorem csq_next (c : Dev nD) (n : ℕ) (hb : n < cfg0.N) (h0 : ¬n % 48 = 0) (acc : Vec Ideal S512x1 .f32) (q : Fin 512) :
    scAt0_2 m c n hb acc (ix2 q (0 : Fin 1)) = acc (ix2 q (0 : Fin 1)) + csqPart m c n q := by
  unfold scAt0_2
  rw [dif_neg h0]
  by_cases h1 : n % 48 = 47
  · rw [dif_pos h1]
    refine (congrFun (lastCsq c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc) (ix2 q (0 : Fin 1))).trans ?_
    refine (csqStep_apply (iblk m c 1 (⟨n, hb⟩ : Fin cfg0.N)) acc q).trans ?_
    exact congrArg (fun b : EReal => acc (ix2 q (0 : Fin 1)) + b)
      (Finset.sum_congr rfl fun e _ => congrArg₂ (fun a b : EReal => a * b) (cblk_apply m c (⟨n, hb⟩ : Fin cfg0.N) q e) (cblk_apply m c (⟨n, hb⟩ : Fin cfg0.N) q e))
  · rw [dif_neg h1]
    refine (congrFun (midCsq c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) _ _ (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc) (ix2 q (0 : Fin 1))).trans ?_
    refine (csqStep_apply (iblk m c 1 (⟨n, hb⟩ : Fin cfg0.N)) acc q).trans ?_
    exact congrArg (fun b : EReal => acc (ix2 q (0 : Fin 1)) + b)
      (Finset.sum_congr rfl fun e _ => congrArg₂ (fun a b : EReal => a * b) (cblk_apply m c (⟨n, hb⟩ : Fin cfg0.N) q e) (cblk_apply m c (⟨n, hb⟩ : Fin cfg0.N) q e))

end Cert.KernelIdeal.RbfAccum

end
-- ==== Proof.Totals.lean ====
/-
  The three running totals after each grid point.

  After the point at feature block `k` of a tile, the product total at `(p, q)` is zero plus the sum over the tile's
  feature blocks `0 … k` of the partial inner products of input row `p` and center `q`, and likewise the two square
  norms: each total is cleared at the tile's first feature block and every block adds its partial sum.
-/
import proofs.«178254_j6562710028922_1_alg».proof.Proof.Accum

noncomputable section

namespace Cert.KernelIdeal.RbfAccum

open Cert.KernelIdeal Cert.KernelIdeal.Gen Cert.KernelIdeal.Value Idealize.ShloMosaic Idealize.ShloMosaic.TcCoe
open Idealize.ShloMosaic.ValueIdx Idealize.SL.Sem Cert.RbfSpec Cert.KernelIdeal.RbfGrid

variable (m : (ℓ : Loc nD τ sig) → Buf (Elt Ideal) ℓ)

/-- Every index of a 512 x 1 column is `(p, 0)`. -/
theorem col_idx (i : S512x1.Idx) : ∃ p : Fin 512, i = ix2 p (0 : Fin 1) :=
  ⟨i 0, funext fun a => by
    match a with
    | ⟨0, _⟩ => rfl
    | ⟨1, _⟩ => exact Fin.ext (by have h : (i 1).val < 1 := (i 1).isLt; show (i 1).val = 0; omega)⟩

/-- The product total after point `t`. -/
theorem xc_after (c : Dev nD) (t : Fin cfg0.N) (p q : Fin 512) :
    (outsAt0 m c t.val t.isLt).2.1 (ix2 p q)
      = 0 + ∑ s ∈ Finset.range (t.val % 48 + 1), dotPart m c (48 * (t.val / 48) + s) p q := by
  have hN := lt384 t
  have ha : ∀ (h : 48 * (t.val / 48) < cfg0.N) (i : S512x512.Idx),
      scAt0_0 m c (48 * (t.val / 48)) h (VS0_0.read (Elt Ideal) VS0_0.junk) i
        = (fun _ : S512x512.Idx => (0 : EReal)) i + (fun (n : ℕ) (i : S512x512.Idx) => dotPart m c n (i 0) (i 1)) (48 * (t.val / 48)) i := by
    intro h i
    obtain ⟨p', q', rfl⟩ : ∃ (p' q' : Fin 512), i = ix2 p' q' := ⟨i 0, i 1, eq_ix2 i⟩
    exact xc_first m c _ h (Nat.mul_mod_right _ _) _ p' q'
  have hg : ∀ (n : ℕ) (h : n < cfg0.N) (acc : S512x512.Idx → EReal) (i : S512x512.Idx), 48 * (t.val / 48) < n → n ≤ 48 * (t.val / 48) + 47 →
      scAt0_0 m c n h acc i = acc i + (fun (n : ℕ) (i : S512x512.Idx) => dotPart m c n (i 0) (i 1)) n i := by
    intro n h acc i hlo hhi
    obtain ⟨p', q', rfl⟩ : ∃ (p' q' : Fin 512), i = ix2 p' q' := ⟨i 0, i 1, eq_ix2 i⟩
    exact xc_next m c n h (by omega) acc p' q'
  have key := Pipeline.accAt_add_apply (N := cfg0.N) (fun n h => scAt0_0 m c n h (VS0_0.read (Elt Ideal) VS0_0.junk)) (scAt0_0 m c)
    (fun _ : S512x512.Idx => (0 : EReal)) (fun (n : ℕ) (i : S512x512.Idx) => dotPart m c n (i 0) (i 1)) (48 * (t.val / 48)) 47 ha hg
    (t.val % 48) (by omega)
  exact (congrFun (soutsAt0_0_eq m c t) (ix2 p q)).trans (key _ (ix2 p q))

/-- The input rows' square norms after point `t`. -/
theorem xsq_after (c : Dev nD) (t : Fin cfg0.N) (p : Fin 512) :
    (outsAt0 m c t.val t.isLt).2.2.1 (ix2 p (0 : Fin 1))
      = 0 + ∑ s ∈ Finset.range (t.val % 48 + 1), xsqPart m c (48 * (t.val / 48) + s) p := by
  have hN := lt384 t
  have ha : ∀ (h : 48 * (t.val / 48) < cfg0.N) (i : S512x1.Idx),
      scAt0_1 m c (48 * (t.val / 48)) h (VS0_1.read (Elt Ideal) VS0_1.junk) i
        = (fun _ : S512x1.Idx => (0 : EReal)) i + (fun (n : ℕ) (i : S512x1.Idx) => xsqPart m c n (i 0)) (48 * (t.val / 48)) i := by
    intro h i
    obtain ⟨p', rfl⟩ := col_idx i
    exact xsq_first m c _ h (Nat.mul_mod_right _ _) _ p'
  have hg : ∀ (n : ℕ) (h : n < cfg0.N) (acc : S512x1.Idx → EReal) (i : S512x1.Idx), 48 * (t.val / 48) < n → n ≤ 48 * (t.val / 48) + 47 →
      scAt0_1 m c n h acc i = acc i + (fun (n : ℕ) (i : S512x1.Idx) => xsqPart m c n (i 0)) n i := by
    intro n h acc i hlo hhi
    obtain ⟨p', rfl⟩ := col_idx i
    exact xsq_next m c n h (by omega) acc p'
  have key := Pipeline.accAt_add_apply (N := cfg0.N) (fun n h => scAt0_1 m c n h (VS0_1.read (Elt Ideal) VS0_1.junk)) (scAt0_1 m c)
    (fun _ : S512x1.Idx => (0 : EReal)) (fun (n : ℕ) (i : S512x1.Idx) => xsqPart m c n (i 0)) (48 * (t.val / 48)) 47 ha hg
    (t.val % 48) (by omega)
  exact (congrFun (soutsAt0_1_eq m c t) (ix2 p (0 : Fin 1))).trans (key _ (ix2 p (0 : Fin 1)))

/-- The centers' square norms after point `t`. -/
theorem csq_after (c : Dev nD) (t : Fin cfg0.N) (q : Fin 512) :
    (outsAt0 m c t.val t.isLt).2.2.2 (ix2 q (0 : Fin 1))
      = 0 + ∑ s ∈ Finset.range (t.val % 48 + 1), csqPart m c (48 * (t.val / 48) + s) q := by
  have hN := lt384 t
  have ha : ∀ (h : 48 * (t.val / 48) < cfg0.N) (i : S512x1.Idx),
      scAt0_2 m c (48 * (t.val / 48)) h (VS0_2.read (Elt Ideal) VS0_2.junk) i
        = (fun _ : S512x1.Idx => (0 : EReal)) i + (fun (n : ℕ) (i : S512x1.Idx) => csqPart m c n (i 0)) (48 * (t.val / 48)) i := by
    intro h i
    obtain ⟨q', rfl⟩ := col_idx i
    exact csq_first m c _ h (Nat.mul_mod_right _ _) _ q'
  have hg : ∀ (n : ℕ) (h : n < cfg0.N) (acc : S512x1.Idx → EReal) (i : S512x1.Idx), 48 * (t.val / 48) < n → n ≤ 48 * (t.val / 48) + 47 →
      scAt0_2 m c n h acc i = acc i + (fun (n : ℕ) (i : S512x1.Idx) => csqPart m c n (i 0)) n i := by
    intro n h acc i hlo hhi
    obtain ⟨q', rfl⟩ := col_idx i
    exact csq_next m c n h (by omega) acc q'
  have key := Pipeline.accAt_add_apply (N := cfg0.N) (fun n h => scAt0_2 m c n h (VS0_2.read (Elt Ideal) VS0_2.junk)) (scAt0_2 m c)
    (fun _ : S512x1.Idx => (0 : EReal)) (fun (n : ℕ) (i : S512x1.Idx) => csqPart m c n (i 0)) (48 * (t.val / 48)) 47 ha hg
    (t.val % 48) (by omega)
  exact (congrFun (soutsAt0_2_eq m c t) (ix2 q (0 : Fin 1))).trans (key _ (ix2 q (0 : Fin 1)))

end Cert.KernelIdeal.RbfAccum

end
-- ==== Proof.Final.lean ====
/-
  The result array of the kernel.

  At the last feature block of a tile the three totals are whole sums: splitting the 49152 features into 48 blocks of
  1024 and adding the blocks' partial sums in order is the sum over all features, because addition of extended reals
  is commutative and associative.  The finished tile at `(p, q)` is therefore the radial-basis activation of input
  row `512 b + p` at center `512 b' + q` for the tile's row block `b` and center block `b'`.  The tiles are written
  back at those last points only, and the 4 x 2 tiles cover the 2048 x 1024 result, so the result array is the
  activation at every entry.
-/
import proofs.«178254_j6562710028922_1_alg».proof.Proof.Totals
import Idealize.ShloMosaic.Lib.ValueLayout
import Idealize.ShloMosaic.Lib.StableHlo.Run

noncomputable section

namespace Cert.KernelIdeal.RbfFinal

open Cert.KernelIdeal Cert.KernelIdeal.Gen Cert.KernelIdeal.Value Idealize.ShloMosaic Idealize.ShloMosaic.TcCoe
open Idealize.ShloMosaic.ValueIdx Idealize.SL.Sem Cert.RbfSpec Cert.KernelIdeal.RbfGrid Cert.KernelIdeal.RbfStep
open Cert.KernelIdeal.RbfPieces Cert.KernelIdeal.RbfAccum
open Idealize.ShloMosaic.Pipeline (Dat)

variable (m : (ℓ : Loc nD τ sig) → Buf (Elt Ideal) ℓ) (ρ : Dev nD → PrngReg)

/-! ## The totals at a tile's last feature block are whole sums -/

/-- Position `48 (t / 48) + k` is feature block `k` of the tile of point `t`. -/
theorem blocks_of_tile (t : Fin cfg0.N) (k : Fin 48) :
    rowBlk (48 * (t.val / 48) + k.val) = rowBlk t.val ∧ ctrBlk (48 * (t.val / 48) + k.val) = ctrBlk t.val
      ∧ featBlk (48 * (t.val / 48) + k.val) = k := by
  have hN := lt384 t
  have hk := k.isLt
  refine ⟨Fin.ext ?_, Fin.ext ?_, Fin.ext ?_⟩
  · show (48 * (t.val / 48) + k.val) / 96 % 4 = t.val / 96 % 4; omega
  · show (48 * (t.val / 48) + k.val) / 48 % 2 = t.val / 48 % 2; omega
  · show (48 * (t.val / 48) + k.val) % 48 = k.val; omega

/-- The product total at a tile's last point is the inner product over all features. -/
theorem xc_total (c : Dev nD) (t : Fin cfg0.N) (h1 : t.val % 48 = 47) (p q : Fin 512) :
    (outsAt0 m c t.val t.isLt).2.1 (ix2 p q)
      = Cert.RbfSpec.inner (arrX m c) (arrC m c) (inputRow (rowBlk t.val) p) (centerRow (ctrBlk t.val) q) := by
  rw [xc_after m c t p q, h1, zero_add]
  show ∑ s ∈ Finset.range 48, dotPart m c (48 * (t.val / 48) + s) p q = _
  unfold Cert.RbfSpec.inner
  refine sum_features_range
    (fun d => arrX m c (ix2 (inputRow (rowBlk t.val) p) d) * arrC m c (ix2 (centerRow (ctrBlk t.val) q) d)) _ fun k => ?_
  obtain ⟨hr, hc, hf⟩ := blocks_of_tile t k
  show dotPart m c (48 * (t.val / 48) + k.val) p q = _
  unfold dotPart
  rw [hr, hc, hf]

/-- The input rows' square norms at a tile's last point are whole. -/
theorem xsq_total (c : Dev nD) (t : Fin cfg0.N) (h1 : t.val % 48 = 47) (p : Fin 512) :
    (outsAt0 m c t.val t.isLt).2.2.1 (ix2 p (0 : Fin 1)) = sqNormX (arrX m c) (inputRow (rowBlk t.val) p) := by
  rw [xsq_after m c t p, h1, zero_add]
  show ∑ s ∈ Finset.range 48, xsqPart m c (48 * (t.val / 48) + s) p = _
  unfold sqNormX
  refine sum_features_range
    (fun d => arrX m c (ix2 (inputRow (rowBlk t.val) p) d) * arrX m c (ix2 (inputRow (rowBlk t.val) p) d)) _ fun k => ?_
  obtain ⟨hr, hc, hf⟩ := blocks_of_tile t k
  show xsqPart m c (48 * (t.val / 48) + k.val) p = _
  unfold xsqPart
  rw [hr, hf]

/-- The centers' square norms at a tile's last point are whole. -/
theorem csq_total (c : Dev nD) (t : Fin cfg0.N) (h1 : t.val % 48 = 47) (q : Fin 512) :
    (outsAt0 m c t.val t.isLt).2.2.2 (ix2 q (0 : Fin 1)) = sqNormC (arrC m c) (centerRow (ctrBlk t.val) q) := by
  rw [csq_after m c t q, h1, zero_add]
  show ∑ s ∈ Finset.range 48, csqPart m c (48 * (t.val / 48) + s) q = _
  unfold sqNormC
  refine sum_features_range
    (fun d => arrC m c (ix2 (centerRow (ctrBlk t.val) q) d) * arrC m c (ix2 (centerRow (ctrBlk t.val) q) d)) _ fun k => ?_
  obtain ⟨hr, hc, hf⟩ := blocks_of_tile t k
  show csqPart m c (48 * (t.val / 48) + k.val) q = _
  unfold csqPart
  rw [hc, hf]

/-! ## The finished tile -/

/-- At a tile's last point the output tile is the closing arithmetic of the three totals the same point leaves and of
    the block of scales. -/
theorem tile_of_totals (c : Dev nD) (t : Fin cfg0.N) (h0 : ¬t.val % 48 = 0) (h1 : t.val % 48 = 47) :
    (outsAt0 m c t.val t.isLt).1
      = k0_pay1 (outsAt0 m c t.val t.isLt).2.2.2 (outsAt0 m c t.val t.isLt).2.2.1 (outsAt0 m c t.val t.isLt).2.1
          (iblk m c 2 t) := by
  rw [outsAt0_C m c t h0 h1]
  dsimp only
  rw [lastXc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    lastXsq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    lastCsq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact lastTile (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The finished tile at `(p, q)` is the activation of the tile's input row `p` at its center `q`. -/
theorem tile_apply (c : Dev nD) (t : Fin cfg0.N) (h1 : t.val % 48 = 47) (p q : Fin 512) :
    (outsAt0 m c t.val t.isLt).1 (ix2 p q)
      = rbf (arrX m c) (arrC m c) (fun j => arrB m c (ix2 (0 : Fin 1) j))
          (inputRow (rowBlk t.val) p) (centerRow (ctrBlk t.val) q) := by
  have h0 : ¬t.val % 48 = 0 := by omega
  refine (congrFun (tile_of_totals m c t h0 h1) (ix2 p q)).trans ?_
  refine (rbfOut_apply _ _ _ (iblk m c 2 t) p q).trans ?_
  have hb : (0 : EReal) - (iblk m c 2 t : Vec Ideal S1x512 .f32) (ix2 (0 : Fin 1) q)
      = -(arrB m c (ix2 (0 : Fin 1) (centerRow (ctrBlk t.val) q))) := by
    rw [zero_sub]
    exact congrArg (fun b : EReal => -b) (bblk_apply m c t q)
  exact congrArg Ideal.exp (congrArg₂ (fun a b : EReal => a * b) hb
    (congrArg₂ (fun a b : EReal => a - b)
      (congrArg₂ (fun a b : EReal => a + b) (xsq_total m c t h1 p) (csq_total m c t h1 q))
      (congrArg (fun b : EReal => Ideal.ofBits .f32 0x40000000#32 * b) (xc_total m c t h1 p q))))

/-! ## From tiles to the array -/

/-- The result array as one function of the arrays the kernel finds: the activation at every entry. -/
def G (c : Dev nD) : Buf (Elt Ideal) ((c : Thread nD τ).loc main_v2) :=
  fun (i : S2048x1024.Idx) => rbf (arrX m c) (arrC m c) (fun j => arrB m c (ix2 (0 : Fin 1) j)) (i 0) (i 1)

/-- What a writing-back point writes is its tile of `G`. -/
theorem flushed_eq (c : Dev nD) (t : Fin cfg0.N) (hf : (cfg0.win 3).flush t = true) :
    (dats m 0 c).flushed 3 t = ((cfg0.win 3).blk t).view.read (Elt Ideal) (G m c) := by
  have h1 : t.val % 48 = 47 := (flush0_3 t).mp hf
  have hN := lt384 t
  obtain ⟨-, -, -, -, -, -, e6, e7⟩ := index_facts t
  rw [flushed3 m c t]
  refine funext fun (j : S512x512.Idx) => ?_
  obtain ⟨p, q, rfl⟩ : ∃ (p q : Fin 512), j = ix2 p q := ⟨j 0, j 1, eq_ix2 j⟩
  show (outsAt0 m c t.val t.isLt).1 (ix2 p q) = G m c (((cfg0.win 3).blk t).view.emb (ix2 p q))
  refine (tile_apply m c t h1 p q).trans ?_
  have hr : inputRow (rowBlk t.val) p = (((cfg0.win 3).blk t).view.emb (ix2 p q)) (0 : Fin 2) := Fin.ext (by
    show t.val / 96 % 4 * 512 + p.val = win0_3.index t (0 : Fin 2) * 512 + 1 * p.val; rw [e6]; omega)
  have hc : centerRow (ctrBlk t.val) q = (((cfg0.win 3).blk t).view.emb (ix2 p q)) (1 : Fin 2) := Fin.ext (by
    show t.val / 48 % 2 * 512 + q.val = win0_3.index t (1 : Fin 2) * 512 + 1 * q.val; rw [e7]; omega)
  exact congrArg₂ (rbf (arrX m c) (arrC m c) (fun j => arrB m c (ix2 (0 : Fin 1) j))) hr hc

/-- An entry of the result is in a point's tile exactly when each coordinate is in the tile's range. -/
theorem mem_blk (t : Fin cfg0.N) (i : S2048x1024.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v2).slice (win0_3.rect t)).set ↔ _
  rw [View.set_slice_whole, Rect.mem_set_unit]
  exact Iff.rfl

/-- The tile of row block `r / 512` and center block `k / 512`, at its last feature block, holds entry `(r, k)`. -/
theorem mem_tile (tv : ℕ) (htv : tv < cfg0.N) (i : S2048x1024.Idx) (h0 : (i 0).val / 512 = tv / 96)
    (h1 : (i 1).val / 512 = tv / 48 % 2) : i ∈ ((cfg0.win 3).blk ⟨tv, htv⟩).view.set := by
  obtain ⟨-, -, -, -, -, -, e6, e7⟩ := index_facts ⟨tv, htv⟩
  have e6' : win0_3.index ⟨tv, htv⟩ (0 : Fin 2) = tv / 96 := e6
  have e7' : win0_3.index ⟨tv, htv⟩ (1 : Fin 2) = tv / 48 % 2 := e7
  rw [mem_blk]
  intro a
  match a with
  | ⟨0, _⟩ =>
    show win0_3.index ⟨tv, htv⟩ (0 : Fin 2) * 512 ≤ (i 0).val ∧ (i 0).val < win0_3.index ⟨tv, htv⟩ (0 : Fin 2) * 512 + 512
    rw [e6']; omega
  | ⟨1, _⟩ =>
    show win0_3.index ⟨tv, htv⟩ (1 : Fin 2) * 512 ≤ (i 1).val ∧ (i 1).val < win0_3.index ⟨tv, htv⟩ (1 : Fin 2) * 512 + 512
    rw [e7']; omega

/-- Every entry of the result is in the tile of some writing-back point. -/
theorem cover (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  have htv : ((i 0).val / 512 * 2 + (i 1).val / 512) * 48 + 47 < cfg0.N :=
    lt_of_lt_of_eq (by omega : ((i 0).val / 512 * 2 + (i 1).val / 512) * 48 + 47 < 384) (N_0).symm
  refine ⟨⟨((i 0).val / 512 * 2 + (i 1).val / 512) * 48 + 47, htv⟩, (flush0_3 _).mpr ?_, mem_tile _ htv i ?_ ?_⟩
  · show (((i 0).val / 512 * 2 + (i 1).val / 512) * 48 + 47) % 48 = 47; omega
  · omega
  · omega

/-- The result array after the run is `G`. -/
theorem final (c : Dev nD) : (dats m 0 c).arrAt 3 cfg0.N = G m c :=
  (dats m 0 c).arrAt_eq_of_cover 3 (G m c) (flushed_eq m c) cover

end Cert.KernelIdeal.RbfFinal

end
-- ==== Proof.SpecArgs.lean ====
/-
  The radial-basis map as a function of the three arrays the programs are given: the inputs as a
  2048 x 128 x 128 x 3 array (each input flattened to 49152 features in row-major order), the 1024 x 49152 centers and
  the 1024 scales.
-/
import proofs.«178254_j6562710028922_1_alg».proof.Proof.Spec
import Idealize.ShloMosaic.Lib.Pipeline.Value

noncomputable section

namespace Cert.RbfSpec

open Idealize.ShloMosaic Idealize.ShloMosaic.ValueIdx

/-- The activation of input `r` at center `q`, from the given arrays: the inputs are flattened, the scales are read
    by center. -/
def rbfOfArgs (a0 : (⟨4, ![2048, 128, 128, 3]⟩ : Shape).Idx → EReal)
    (h : (⟨4, ![2048, 128, 128, 3]⟩ : Shape).ShapeCasts ⟨2, ![2048, 49152]⟩)
    (a1 : (⟨2, ![1024, 49152]⟩ : Shape).Idx → EReal) (a2 : (⟨1, ![1024]⟩ : Shape).Idx → EReal) :
    (⟨2, ![2048, 1024]⟩ : Shape).Idx → EReal :=
  fun i => rbf (shapeCast ⟨2, ![2048, 49152]⟩ a0 h) a1 (fun q => a2 (ix1 q)) (i 0) (i 1)

end Cert.RbfSpec

end
-- ==== Proof.KernelRun.lean ====
/-
  The kernel's run, read: the result array is the radial-basis map of the three argument arrays.

  Before the kernel starts the inputs are reshaped to 2048 x 49152 (row-major flattening) and the scales to a
  1 x 1024 row; the centers are passed as given.  So the arrays the windows find are those reshapes of the
  arguments, and the result array of the run is the activation computed from the arguments themselves.
-/
import proofs.«178254_j6562710028922_1_alg».proof.Proof.Final
import proofs.«178254_j6562710028922_1_alg».proof.Proof.SpecArgs

noncomputable section

namespace Cert.KernelIdeal.RbfFinal

open Cert.KernelIdeal Cert.KernelIdeal.Gen Cert.KernelIdeal.Value Idealize.ShloMosaic Idealize.ShloMosaic.TcCoe
open Idealize.ShloMosaic.ValueIdx Idealize.SL.Sem Cert.RbfSpec Cert.KernelIdeal.RbfAccum Idealize.ShloMosaic.StableHlo

variable (m : (ℓ : Loc nD τ sig) → Buf (Elt Ideal) ℓ) (ρ : Dev nD → PrngReg)

/-- The first window's array is the row-major flattening of the inputs. -/
theorem arrX_eq (c : Dev nD) :
    arrX m c = shapeCast S2048x49152 (m ((c : Thread nD τ).loc main_arg0)) shapeCasts_S2048x128x128x3_S2048x49152 := by
  show (V m c main_v0 : S2048x49152.Idx → EReal) = _
  dsimp only [Gen.V, Gen.hostOps0]
  after_results
  rfl

/-- The third window's array is the scales laid out as one row. -/
theorem arrB_eq (c : Dev nD) :
    arrB m c = shapeCast S1x1024 (m ((c : Thread nD τ).loc main_arg2)) shapeCasts_S1024_S1x1024 := by
  show (V m c main_v1 : S1x1024.Idx → EReal) = _
  dsimp only [Gen.V, Gen.hostOps0]
  after_results
  rfl

/-- The second window's array is the centers as given. -/
theorem arrC_eq (c : Dev nD) : arrC m c = m ((c : Thread nD τ).loc main_arg1) := V_main_arg1 m c

/-- The scale the kernel reads for center `q` is the given scale of center `q`. -/
theorem scale_eq (c : Dev nD) :
    (fun j : Fin 1024 => arrB m c (ix2 (0 : Fin 1) j)) = fun q => m ((c : Thread nD τ).loc main_arg2) (ix1 q) :=
  funext fun q => by
    rw [arrB_eq m c]
    exact shapeCast_a_1a_apply _ shapeCasts_S1024_S1x1024 (0 : Fin 1) q

/-- The result array as a function of the arguments. -/
theorem G_eq (c : Dev nD) :
    G m c = rbfOfArgs (m ((c : Thread nD τ).loc main_arg0)) shapeCasts_S2048x128x128x3_S2048x49152
      (m ((c : Thread nD τ).loc main_arg1)) (m ((c : Thread nD τ).loc main_arg2)) := by
  funext i
  show rbf (arrX m c) (arrC m c) (fun j : Fin 1024 => arrB m c (ix2 (0 : Fin 1) j)) (i 0) (i 1)
    = rbf (shapeCast S2048x49152 (m ((c : Thread nD τ).loc main_arg0)) shapeCasts_S2048x128x128x3_S2048x49152)
        (m ((c : Thread nD τ).loc main_arg1)) (fun q => m ((c : Thread nD τ).loc main_arg2) (ix1 q)) (i 0) (i 1)
  rw [scale_eq m c, arrX_eq m c, arrC_eq m c]

/-- Every weakly fair execution of the kernel's program terminates with the result array at the radial-basis map of
    the arguments, and the arguments unchanged. -/
theorem run : θ_run defs (onTc (τ := τ) (main (F := Ideal))) ⟨m, fun _ => 0, ρ⟩ fun r => ∀ c : Dev nD,
      r.2.mem ((c : Thread nD τ).loc main_v2)
          = rbfOfArgs (m ((c : Thread nD τ).loc main_arg0)) shapeCasts_S2048x128x128x3_S2048x49152
              (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (G_eq m c)), (h c).2⟩) (run_blocks m ρ)

end Cert.KernelIdeal.RbfFinal

end
-- ==== Proof.RefSide.lean ====
/-
  The reference computes the radial-basis map.

  Read one entry at a time, the reference's result at `(r, k)` is the exponential of minus the scale of center `k`
  times  (‖x r‖² + ‖c k‖²) − 2 ⟨x r, c k⟩,  where the two square norms are row sums of squares (each started from
  zero), the inner product is one contraction over the 49152 features of the flattened inputs against the centers, and
  the norms and the scales are spread over the 2048 x 1024 result along the other axis.
-/
import proofs.«178254_j6562710028922_1_alg».proof.Proof.Gen.ReferenceIdeal.Read
import proofs.«178254_j6562710028922_1_alg».proof.Proof.SpecArgs

noncomputable section

namespace Cert.ReferenceIdeal.RefValue

open Cert.ReferenceIdeal Cert.ReferenceIdeal.Gen Cert.ReferenceIdeal.Read Idealize.ShloMosaic Idealize.ShloMosaic.ValueIdx
open Cert.RbfSpec

variable (x0 : (⟨S2048x128x128x3, .f32⟩ : BufTy).Contents (Elt Ideal)) (x1 : (⟨S1024x49152, .f32⟩ : BufTy).Contents (Elt Ideal))
  (x2 : (⟨S1024, .f32⟩ : BufTy).Contents (Elt Ideal))

/-- The spread square norm of input `r`: the row sum of squares of the flattened inputs. -/
theorem xsq_apply (r : Fin 2048) (k : Fin 1024) :
    val_main_v8 (F := Ideal) x0 (ix2 r k) = sqNormX (val_main_v0 (F := Ideal) x0) r := by
  refine (val_main_v8_apply x0 _).trans ((val_main_v3_apply x0 _).trans ((val_main_v2_apply x0 _).trans ?_))
  show Ideal.ofBits .f32 0x00000000#32 + ∑ d : Fin 49152, val_main_v0 (F := Ideal) x0 (idx_main_v2 (idx_main_v3 (idx_main_v8 (ix2 r k))) d)
      * val_main_v0 (F := Ideal) x0 (idx_main_v2 (idx_main_v3 (idx_main_v8 (ix2 r k))) d) = _
  rw [Ideal.ofBits_zero_f32, zero_add]
  unfold sqNormX
  refine Finset.sum_congr rfl fun d _ => ?_
  have e : idx_main_v2 (idx_main_v3 (idx_main_v8 (ix2 r k))) d = ix2 r d :=
    funext fun a => Fin.ext (by match a with | ⟨0, _⟩ => rfl | ⟨1, _⟩ => rfl)
  rw [e]

/-- The spread square norm of center `k`. -/
theorem csq_apply (r : Fin 2048) (k : Fin 1024) :
    val_main_v9 (F := Ideal) x1 (ix2 r k) = sqNormC x1 k := by
  refine (val_main_v9_apply x1 _).trans ((val_main_v7_apply x1 _).trans ((val_main_v5_apply x1 _).trans ?_))
  show Ideal.ofBits .f32 0x00000000#32 + ∑ d : Fin 49152, x1 (idx_main_v5 (idx_main_v7 (idx_main_v9 (ix2 r k))) d)
      * x1 (idx_main_v5 (idx_main_v7 (idx_main_v9 (ix2 r k))) d) = _
  rw [Ideal.ofBits_zero_f32, zero_add]
  unfold sqNormC
  refine Finset.sum_congr rfl fun d _ => ?_
  have e : idx_main_v5 (idx_main_v7 (idx_main_v9 (ix2 r k))) d = ix2 k d :=
    funext fun a => Fin.ext (by match a with | ⟨0, _⟩ => rfl | ⟨1, _⟩ => rfl)
  rw [e]

/-- The contraction at `(r, k)`: the inner product of input `r` and center `k`. -/
theorem dot_apply (r : Fin 2048) (k : Fin 1024) :
    val_main_v6 (F := Ideal) x0 x1 (ix2 r k) = Cert.RbfSpec.inner (val_main_v0 (F := Ideal) x0) x1 r k := by
  refine (val_main_v6_apply x0 x1 _).trans ?_
  unfold Cert.RbfSpec.inner
  refine Finset.sum_congr rfl fun d _ => ?_
  have el : lidx_main_v6 (ix2 r k) d = ix2 r d :=
    funext fun a => Fin.ext (by match a with | ⟨0, _⟩ => rfl | ⟨1, _⟩ => rfl)
  have er : ridx_main_v6 (ix2 r k) d = ix2 k d :=
    funext fun a => Fin.ext (by match a with | ⟨0, _⟩ => rfl | ⟨1, _⟩ => rfl)
  rw [el, er]

/-- The spread negated scale at `(r, k)`: minus the scale of center `k`. -/
theorem negScale_apply (r : Fin 2048) (k : Fin 1024) :
    val_main_v16 (F := Ideal) x2 (ix2 r k) = -(x2 (ix1 k)) := by
  refine (val_main_v16_apply x2 _).trans ?_
  show -(val_main_v14 (F := Ideal) x2 (idx_main_v16 (ix2 r k))) = _
  refine congrArg (fun b : EReal => -b) ((val_main_v14_apply x2 _).trans ?_)
  exact congrArg x2 (funext fun a => Fin.ext (by match a with | ⟨0, _⟩ => rfl))

/-- The spread constant 2 at any entry. -/
theorem two_apply (i : S2048x1024.Idx) : val_main_v11 (F := Ideal) i = Ideal.ofBits .f32 0x40000000#32 :=
  val_main_v11_apply i

/-- The reference's result is the radial-basis map of its three arguments. -/
theorem result_eq :
    val_main_v18 (F := Ideal) x0 x1 x2 = rbfOfArgs x0 shapeCasts_S2048x128x128x3_S2048x49152 x1 x2 := by
  funext i
  obtain ⟨r, k, rfl⟩ : ∃ (r : Fin 2048) (k : Fin 1024), i = ix2 r k := ⟨i 0, i 1, eq_ix2 i⟩
  show Ideal.exp (val_main_v16 (F := Ideal) x2 (ix2 r k)
      * ((val_main_v8 (F := Ideal) x0 (ix2 r k) + val_main_v9 (F := Ideal) x1 (ix2 r k))
        - val_main_v11 (F := Ideal) (ix2 r k) * val_main_v6 (F := Ideal) x0 x1 (ix2 r k))) = _
  rw [negScale_apply, xsq_apply, csq_apply, two_apply, dot_apply]
  rfl

end Cert.ReferenceIdeal.RefValue

end
-- ==== Proof.lean ====
/-
  The radial-basis kernel computes the same array as its reference, over the extended reals.

  Both programs take 2048 inputs (each a 128 x 128 x 3 array, flattened to 49152 features), 1024 centers of 49152
  features and 1024 scales β, and return, for input `r` and center `k`,
      exp ( −β k · ( (‖x r‖² + ‖c k‖²) − 2 ⟨x r, c k⟩ ) ).
  The reference takes each square norm and each inner product as one sum over the 49152 features.  The kernel works
  tile by tile (512 inputs x 512 centers) and, within a tile, over 48 blocks of 1024 features: it clears three
  running totals at the first block, adds each block's partial sums, and after the last block combines the totals by
  the same closing arithmetic.  A sum over all features equals the sum of the 48 blocks' partial sums added in order,
  since addition of extended reals is commutative and associative; the narrowing of the matrix product's operands is
  the identity on extended reals; and `0 − β` is `−β`.  So the two results agree entry by entry, with no use of the
  finiteness of the inputs.  The idealization rewrote no operation of the kernel, so there is nothing to preserve.
-/
import proofs.«178254_j6562710028922_1_alg».proof.Defs
import proofs.«178254_j6562710028922_1_alg».proof.Proof.Gen.Kernel
import proofs.«178254_j6562710028922_1_alg».proof.Proof.Gen.Kernel.Skeleton
import proofs.«178254_j6562710028922_1_alg».proof.Proof.Gen.Kernel.Launch
import proofs.«178254_j6562710028922_1_alg».proof.Proof.Gen.Kernel.Points
import proofs.«178254_j6562710028922_1_alg».proof.Proof.Gen.Kernel.Frame
import proofs.«178254_j6562710028922_1_alg».proof.Proof.Gen.KernelIdeal
import proofs.«178254_j6562710028922_1_alg».proof.Proof.Gen.KernelIdeal.Skeleton
import proofs.«178254_j6562710028922_1_alg».proof.Proof.Gen.KernelIdeal.Launch
import proofs.«178254_j6562710028922_1_alg».proof.Proof.Gen.KernelIdeal.Points
import proofs.«178254_j6562710028922_1_alg».proof.Proof.Gen.KernelIdeal.Frame
import proofs.«178254_j6562710028922_1_alg».proof.Proof.Gen.ReferenceIdeal
import proofs.«178254_j6562710028922_1_alg».proof.Proof.Gen.Pre_finite_inputs
import proofs.«178254_j6562710028922_1_alg».proof.Proof.Gen.KernelIdeal.Value
import proofs.«178254_j6562710028922_1_alg».proof.Proof.Gen.ReferenceIdeal.Run
import proofs.«178254_j6562710028922_1_alg».proof.Proof.Gen.ReferenceIdeal.Read
import proofs.«178254_j6562710028922_1_alg».proof.Proof.KernelRun
import proofs.«178254_j6562710028922_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program runs to the end and leaves its arguments as they were. -/
theorem frame_kernel : Cert.frame_Kernel := fun m ρ _ => Cert.Kernel.Gen.frame m ρ

/-- So does the kernel's program read over the extended reals. -/
theorem frame_kernelIdeal : Cert.frame_KernelIdeal := fun m ρ _ => Cert.KernelIdeal.Gen.frame m ρ

/-- The reference runs to the end and leaves its arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from arguments that agree, the kernel's result array and the reference's are both the
    radial-basis map of the arguments. -/
theorem algebraic : Cert.algebraic_KernelIdeal_ReferenceIdeal := by
  intro m ρ m' ρ' _ hagree
  refine ⟨fun c => Cert.RbfSpec.rbfOfArgs (m ((c.tc : Thread Cert.KernelIdeal.nD Cert.KernelIdeal.τ).loc Cert.KernelIdeal.main_arg0))
      Cert.KernelIdeal.Facts₀.shapeCasts_S2048x128x128x3_S2048x49152
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RbfFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
